-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .bf16⟩
  | .hbm, ⟨5, _⟩ => ⟨S32x2048x128, .f32⟩
  | .hbm, ⟨6, _⟩ => ⟨S32x2048x128, .bf16⟩
  | .hbm, ⟨7, _⟩ => ⟨S32x2048x128, .f32⟩
  | .hbm, ⟨8, _⟩ => ⟨S32x2048x128, .bf16⟩
  | .hbm, ⟨9, _⟩ => ⟨S32x2048x128, .f32⟩
  | .hbm, ⟨10, _⟩ => ⟨S2x16x2048x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .f32⟩
  | .local _ .vmem, ⟨7, _⟩ => ⟨S1x1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x128_S32x2048x128 : S2x16x2048x128.ShapeCasts S32x2048x128
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  shapeCasts_S32x2048x128_S2x16x2048x128 : S32x2048x128.ShapeCasts S2x16x2048x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .bf16 = 32 ∨ (Rect.block (s := S32x2048x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .bf16 = 32 ∨ (Rect.block (s := S32x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .bf16 = 32 ∨ (Rect.block (s := S32x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.AttnSpec.lean ====
/-
  Softmax attention of one query row, on the extended reals.

  For a query row q (d entries), n key rows k j and one value per key v j:
    score j   = sum over e of q e * k j e                       (the query against key j)
    rowMax    = the largest score, the fold of max from -inf
    weight j  = exp (score j - rowMax)
    prob j    = weight j / (sum over j' of weight j')
    row       = sum over j of prob j * v j
  Both programs compute exactly this value at every entry of the result; the only differences between their
  texts are a division of the scores by 1 and a maximum with -inf, which change no extended real.
-/
import Idealize.ShloMosaic.PureOps.Ideal
import Idealize.ShloMosaic.PureOps.Ideal.Laws

noncomputable section

open scoped BigOperators

namespace Cert.Attn

open Idealize.ShloMosaic

/-- The query row against key row `j`: their dot product. -/
def score {n d : ℕ} (q : Fin d → EReal) (k : Fin n → Fin d → EReal) (j : Fin n) : EReal :=
  ∑ e : Fin d, q e * k j e

/-- The largest of `n` scores: the fold of `max` from the value of the pattern of -inf. -/
def rowMax {n : ℕ} (s : Fin n → EReal) : EReal :=
  (Finset.univ : Finset (Fin n)).fold max (Ideal.ofBits .f32 0xFF800000#32) s

/-- The unnormalised weight of key `j`: the exponential of its score less the largest score. -/
def weight {n : ℕ} (s : Fin n → EReal) (j : Fin n) : EReal :=
  Ideal.exp (s j - rowMax s)

/-- The softmax probability of key `j`: its weight over the sum of all weights. -/
def prob {n : ℕ} (s : Fin n → EReal) (j : Fin n) : EReal :=
  Ideal.div (weight s j) (∑ j' : Fin n, weight s j')

/-- One entry of the attention output: the probabilities against one column of the values. -/
def row {n d : ℕ} (q : Fin d → EReal) (k : Fin n → Fin d → EReal) (v : Fin n → EReal) : EReal :=
  ∑ j : Fin n, prob (score q k) j * v j

/-- The pattern 0x3F800000 denotes the real 1. -/
theorem ofBits_one : Ideal.ofBits .f32 0x3F800000#32 = ((1 : ℝ) : EReal) := by
  simp [Ideal.ofBits, Ideal.ieee, -EReal.coe_mul]
  norm_num

/-- The pattern 0xFF800000 denotes -inf, the least extended real. -/
theorem ofBits_neg_inf : Ideal.ofBits .f32 0xFF800000#32 = (⊥ : EReal) := by
  simp [Ideal.ofBits, Ideal.ieee]

/-- Dividing by the pattern of 1 changes no extended real, the infinities included. -/
theorem div_one_pattern (x : EReal) : Ideal.div x (Ideal.ofBits .f32 0x3F800000#32) = x := by
  rw [ofBits_one, Ideal.div_coe one_ne_zero]
  simp

/-- The maximum with the pattern of -inf changes no extended real. -/
theorem max_neg_inf_pattern (x : EReal) : max (Ideal.ofBits .f32 0xFF800000#32) x = x := by
  rw [ofBits_neg_inf]
  exact max_eq_right bot_le

end Cert.Attn

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.BodyIsAttn.lean ====
/-
  The kernel's body computes softmax attention, entry by entry.

  The body reads a [1, 1024, 128] block of queries and [1, 2048, 128] blocks of keys and values, and stores one
  [1, 1024, 128] block.  Read on the extended reals, the entry (0, p, d) of what it stores is the attention row of
  query p against all 2048 keys, taken against column d of the values: the scores are the dot products of query p
  with each key, the weights are the exponentials of the scores less their maximum, the probabilities are the weights
  over their sum, and the entry is the sum over the keys of probability times value.
-/
import proofs.«135960_j52518860096427_2_alg».proof.Proof.Gen.KernelIdeal.Skeleton
import proofs.«135960_j52518860096427_2_alg».proof.Proof.AttnSpec
import proofs.«135960_j52518860096427_2_alg».proof.Proof.LibMatmulRows
import proofs.«135960_j52518860096427_2_alg».proof.Proof.LibPlainMatmul
import proofs.«135960_j52518860096427_2_alg».proof.Proof.LibRowMax
import proofs.«135960_j52518860096427_2_alg».proof.Proof.LibRowOps
import Idealize.ShloMosaic.Lib.ValueIdx
import Idealize.ShloMosaic.Lib.Pipeline.Value
import Idealize.ShloMosaic.Lib.ValueLayout

noncomputable section

open scoped BigOperators

namespace Cert.BodyAttn

open Idealize.ShloMosaic Idealize.ShloMosaic.ValueIdx Cert.KernelIdeal Cert.KernelIdeal.Gen

/-- Dropping the leading unit axis of a [1, a, b] block: the entry (p, e) of the result is the entry (0, p, e) of the
    block, since both sit at the row-major position p · b + e. -/
theorem drop_unit_apply {α : Type} {a b : ℕ} (v : (⟨3, ![1, a, b]⟩ : Shape).Idx → α)
    (h : (⟨3, ![1, a, b]⟩ : Shape).ShapeCasts ⟨2, ![a, b]⟩) (p : Fin a) (e : Fin b) :
    shapeCast ⟨2, ![a, b]⟩ v h (ix2 p e) = v (ix3 (0 : Fin 1) p e) :=
  shapeCast_apply v h _ _ (by
    rw [Shape.rowMajor_val_three, Shape.rowMajor_val_two]
    show (0 * a + p.val) * b + e.val = p.val * b + e.val
    rw [Nat.zero_mul, Nat.zero_add])

/-- Adding a leading unit axis to an [a, b] array: the entry (0, p, e) of the result is the entry (p, e) of the
    array, since both sit at the row-major position p · b + e. -/
theorem add_unit_apply {α : Type} {a b : ℕ} (v : (⟨2, ![a, b]⟩ : Shape).Idx → α)
    (h : (⟨2, ![a, b]⟩ : Shape).ShapeCasts ⟨3, ![1, a, b]⟩) (p : Fin a) (e : Fin b) :
    shapeCast ⟨3, ![1, a, b]⟩ v h (ix3 (0 : Fin 1) p e) = v (ix2 p e) :=
  shapeCast_apply v h _ _ (by
    rw [Shape.rowMajor_val_three, Shape.rowMajor_val_two]
    show p.val * b + e.val = (0 * a + p.val) * b + e.val
    rw [Nat.zero_mul, Nat.zero_add])

/-- The row maximum of a score array from -inf, kept as a column and repeated along the row: at (p, j) it is the
    largest score of row p. -/
theorem row_max_repeated_apply {a n : ℕ} (s : FVec Ideal ⟨2, ![a, n]⟩ .f32)
    (hr : (⟨2, ![a, n]⟩ : Shape).Reduces [1] ⟨1, ![a]⟩)
    (hc : (⟨1, ![a]⟩ : Shape).ShapeCasts ⟨2, ![a, 1]⟩) (hb : (⟨2, ![a, 1]⟩ : Shape).Broadcasts ⟨2, ![a, n]⟩)
    (hφ : FKind.Formats .f32) (hm : (0xFF800000#32 : BitVec 32) = 0xFF800000#32) (p : Fin a) (j : Fin n) :
    broadcastTo ⟨2, ![a, n]⟩ (shapeCast ⟨2, ![a, 1]⟩
        (multiReduction (F := Ideal) .maximumf [1] ⟨1, ![a]⟩ s 0xFF800000#32 hr hφ hm) hc) hb (ix2 p j)
      = Cert.Attn.rowMax (fun j' : Fin n => s (ix2 p j')) :=
  (Cert.RowOps.column_repeated_apply _ hc hb p j).trans (Cert.RowMax.max_over_columns_apply s hr hφ hm p)

/-- The exponential of a score less its row's maximum is the weight of that score. -/
theorem weight_apply {a n : ℕ} (s : FVec Ideal ⟨2, ![a, n]⟩ .f32)
    (hr : (⟨2, ![a, n]⟩ : Shape).Reduces [1] ⟨1, ![a]⟩)
    (hc : (⟨1, ![a]⟩ : Shape).ShapeCasts ⟨2, ![a, 1]⟩) (hb : (⟨2, ![a, 1]⟩ : Shape).Broadcasts ⟨2, ![a, n]⟩)
    (hφ : FKind.Formats .f32) (hm : (0xFF800000#32 : BitVec 32) = 0xFF800000#32) (p : Fin a) (j : Fin n) :
    exp (subf s (broadcastTo ⟨2, ![a, n]⟩ (shapeCast ⟨2, ![a, 1]⟩
        (multiReduction (F := Ideal) .maximumf [1] ⟨1, ![a]⟩ s 0xFF800000#32 hr hφ hm) hc) hb)) (ix2 p j)
      = Cert.Attn.weight (fun j' : Fin n => s (ix2 p j')) j :=
  congrArg (fun m : EReal => Ideal.exp (s (ix2 p j) - m)) (row_max_repeated_apply s hr hc hb hφ hm p j)

/-- Row-wise softmax of a score array as the kernel writes it — the exponentials of the scores less the row maximum,
    over their row sum kept as a column and repeated — is at (p, j) the softmax probability of score j of row p. -/
theorem softmax_apply {a n : ℕ} (s : FVec Ideal ⟨2, ![a, n]⟩ .f32)
    (hr : (⟨2, ![a, n]⟩ : Shape).Reduces [1] ⟨1, ![a]⟩)
    (hc : (⟨1, ![a]⟩ : Shape).ShapeCasts ⟨2, ![a, 1]⟩) (hb : (⟨2, ![a, 1]⟩ : Shape).Broadcasts ⟨2, ![a, n]⟩)
    (hφ hφ' : FKind.Formats .f32) (hm : (0xFF800000#32 : BitVec 32) = 0xFF800000#32)
    (hz : (0x00000000#32 : BitVec 32) = 0x00000000#32) (p : Fin a) (j : Fin n) :
    divf
        (exp (subf s (broadcastTo ⟨2, ![a, n]⟩ (shapeCast ⟨2, ![a, 1]⟩
          (multiReduction (F := Ideal) .maximumf [1] ⟨1, ![a]⟩ s 0xFF800000#32 hr hφ hm) hc) hb)))
        (broadcastTo ⟨2, ![a, n]⟩ (shapeCast ⟨2, ![a, 1]⟩
          (multiReduction (F := Ideal) .add [1] ⟨1, ![a]⟩
            (exp (subf s (broadcastTo ⟨2, ![a, n]⟩ (shapeCast ⟨2, ![a, 1]⟩
              (multiReduction (F := Ideal) .maximumf [1] ⟨1, ![a]⟩ s 0xFF800000#32 hr hφ hm) hc) hb)))
            0x00000000#32 hr hφ' hz) hc) hb)
        (ix2 p j)
      = Cert.Attn.prob (fun j' : Fin n => s (ix2 p j')) j := by
  refine congrArg₂ Ideal.div (weight_apply s hr hc hb hφ hm p j) ?_
  refine (Cert.RowOps.column_repeated_apply _ hc hb p j).trans ?_
  refine (Cert.RowOps.sum_over_columns_apply _ hr hφ' hz p).trans ?_
  exact Finset.sum_congr rfl fun j' _ => weight_apply s hr hc hb hφ hm p j'

/-- The query block against the rows of the key block, both with their unit axis dropped, onto the zero array: at
    (p, j) the score of query p against key j. -/
theorem scores_apply (x0 : Vec Ideal S1x1024x128 .bf16) (x1 : Vec Ideal S1x2048x128 .bf16) (p : Fin 1024) (j : Fin 2048) :
    matmul (F := Ideal) dot_S1024x128_S2048x128_S1024x2048_1_1_0_0_n_n none
        (shapeCast S1024x128 x0 shapeCasts_S1x1024x128_S1024x128 : FVec Ideal S1024x128 .bf16)
        (shapeCast S2048x128 x1 shapeCasts_S1x2048x128_S2048x128 : FVec Ideal S2048x128 .bf16)
        (constant S1024x2048 .f32 0x00000000#32) (ix2 p j)
      = Cert.Attn.score (fun e : Fin 128 => x0 (ix3 (0 : Fin 1) p e))
          (fun (j' : Fin 2048) (e : Fin 128) => x1 (ix3 (0 : Fin 1) j' e)) j := by
  refine (Cert.MatmulRows.zero_acc_apply dot_S1024x128_S2048x128_S1024x2048_1_1_0_0_n_n_wf none _ _ p j).trans ?_
  exact Finset.sum_congr rfl fun e _ =>
    congrArg₂ (· * ·) (drop_unit_apply x0 _ p e) (drop_unit_apply x1 _ j e)

/-- The entry (0, p, d) of the block the body stores is the attention row of query p against the keys, taken against
    column d of the values. -/
theorem pay_apply (x0 : Vec Ideal Cert.KernelIdeal.S1x1024x128 .bf16) (x1 x2 : Vec Ideal Cert.KernelIdeal.S1x2048x128 .bf16) (p : Fin 1024) (d : Fin 128) :
    Cert.KernelIdeal.Gen.k0_pay1 (F := Ideal) x0 x1 x2 (ix3 (0 : Fin 1) p d)
      = Cert.Attn.row (fun e : Fin 128 => x0 (ix3 (0 : Fin 1) p e)) (fun (j : Fin 2048) (e : Fin 128) => x1 (ix3 (0 : Fin 1) j e)) (fun j : Fin 2048 => x2 (ix3 (0 : Fin 1) j d)) := by
  unfold k0_pay1
  refine (add_unit_apply _ _ p d).trans ?_
  refine (Cert.PlainMatmul.zero_acc_apply dot_S1024x2048_S2048x128_S1024x128_1_0_0_1_n_n_wf none _ _ p d).trans ?_
  refine Finset.sum_congr rfl fun j _ => ?_
  refine congrArg₂ (· * ·) ?_ (drop_unit_apply x2 _ j d)
  refine (softmax_apply _ _ _ _ _ _ _ _ p j).trans ?_
  exact congrArg (fun s : Fin 2048 → EReal => Cert.Attn.prob s j) (funext fun j' => scores_apply x0 x1 p j')

end Cert.BodyAttn

end
-- ==== Proof.LibLeadAxes.lean ====
/-
  Merging the two leading axes of a four-axis array, and splitting them back, read at an entry.

  An array [a, b, c, d] re-laid as [N, c, d] with N = a b moves no entry: its slab p b + q is the slab (p, q), so the
  entry (p b + q, r, s) of the merged array is the entry (p, q, r, s) of the original, and conversely.  The extents are
  variables.
-/
import Idealize.ShloMosaic.Lib.ValueIdx
import Idealize.ShloMosaic.Lib.Pipeline.Value

noncomputable section

namespace Cert.LeadAxes

open Idealize.ShloMosaic Idealize.ShloMosaic.ValueIdx

variable {α : Type}

/-- [a, b, c, d] with its two leading axes merged into N = a b slabs: slab p b + q at (r, s) is the entry (p, q, r, s). -/
theorem merge_apply {a b c d N : ℕ} (v : (⟨4, ![a, b, c, d]⟩ : Shape).Idx → α)
    (h : (⟨4, ![a, b, c, d]⟩ : Shape).ShapeCasts ⟨3, ![N, c, d]⟩) (p : Fin a) (q : Fin b) (r : Fin c) (s : Fin d)
    (n : Fin N) (hn : n.val = p.val * b + q.val) :
    shapeCast ⟨3, ![N, c, d]⟩ v h (ix3 n r s) = v (ix4 p q r s) := by
  refine shapeCast_apply v h (ix3 n r s) (ix4 p q r s) ?_
  rw [Shape.rowMajor_val_three, Shape.rowMajor_val_four]
  show ((p.val * b + q.val) * c + r.val) * d + s.val = (n.val * c + r.val) * d + s.val
  rw [hn]

/-- [N, c, d] with its N = a b slabs split into [a, b]: the entry (p, q, r, s) is slab p b + q at (r, s). -/
theorem split_apply {a b c d N : ℕ} (v : (⟨3, ![N, c, d]⟩ : Shape).Idx → α)
    (h : (⟨3, ![N, c, d]⟩ : Shape).ShapeCasts ⟨4, ![a, b, c, d]⟩) (p : Fin a) (q : Fin b) (r : Fin c) (s : Fin d)
    (n : Fin N) (hn : n.val = p.val * b + q.val) :
    shapeCast ⟨4, ![a, b, c, d]⟩ v h (ix4 p q r s) = v (ix3 n r s) := by
  refine shapeCast_apply v h (ix4 p q r s) (ix3 n r s) ?_
  rw [Shape.rowMajor_val_three, Shape.rowMajor_val_four]
  show (n.val * c + r.val) * d + s.val = ((p.val * b + q.val) * c + r.val) * d + s.val
  rw [hn]

end Cert.LeadAxes

end
-- ==== Proof.KernelValue.lean ====
/-
  What the kernel program leaves in its result array, entry by entry, on the extended reals.

  The program merges the batch and head axes of its three arguments ([2, 16, 2048, 128] to [32, 2048, 128]; the change
  of float format that follows is the identity on the extended reals), runs the attention body on a grid of 32 x 2
  points, and splits the leading axis of the body's output back.  At grid point (g, i) the body reads rows
  1024 i .. 1024 i + 1023 of slab g of the queries and the whole slabs g of the keys and of the values, and writes rows
  1024 i .. 1024 i + 1023 of slab g of the output: each written entry (g, r, d) is the attention row of query row
  (g, r) against the key rows of slab g and column d of the value rows of slab g.  The 64 blocks tile the output
  array, so the whole array is that one function of the merged arguments; read through the two re-layings, the
  result at (b, h, q, d) is the attention row of query (b, h, q) against the keys and values of (b, h).
-/
import proofs.«135960_j52518860096427_2_alg».proof.Proof.Gen.KernelIdeal.Frame
import proofs.«135960_j52518860096427_2_alg».proof.Proof.AttnSpec
import proofs.«135960_j52518860096427_2_alg».proof.Proof.BodyIsAttn
import proofs.«135960_j52518860096427_2_alg».proof.Proof.LibLeadAxes
import Idealize.ShloMosaic.Lib.Pipeline.Value
import Idealize.ShloMosaic.Lib.ValueIdx
import Idealize.ShloMosaic.Lib.StableHlo.Run

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The two functions: on the merged arrays, and on the arguments -/

/-- Attention on the merged arrays: the entry (g, r, d) is the attention row of query row (g, r) against the key
    rows of slab g and column d of the value rows of slab g. -/
def onSlabs (Q K W : S32x2048x128.Idx → EReal) : S32x2048x128.Idx → EReal := fun i =>
  Cert.Attn.row (fun e : Fin 128 => Q (ix3 (i 0 : Fin 32) (i 1 : Fin 2048) e))
    (fun (j : Fin 2048) (e : Fin 128) => K (ix3 (i 0 : Fin 32) j e))
    (fun j : Fin 2048 => W (ix3 (i 0 : Fin 32) j (i 2 : Fin 128)))

/-- Attention on the arguments: the entry (b, h, q, d) is the attention row of query (b, h, q) against the keys of
    (b, h) and column d of the values of (b, h). -/
def onArgs (Q K W : S2x16x2048x128.Idx → EReal) : S2x16x2048x128.Idx → EReal := fun i =>
  Cert.Attn.row (fun e : Fin 128 => Q (ix4 (i 0 : Fin 2) (i 1 : Fin 16) (i 2 : Fin 2048) e))
    (fun (j : Fin 2048) (e : Fin 128) => K (ix4 (i 0 : Fin 2) (i 1 : Fin 16) j e))
    (fun j : Fin 2048 => W (ix4 (i 0 : Fin 2) (i 1 : Fin 16) j (i 3 : Fin 128)))

/-- An argument with its batch and head axes merged. -/
def merged (A : S2x16x2048x128.Idx → EReal) : S32x2048x128.Idx → EReal :=
  shapeCast S32x2048x128 A shapeCasts_S2x16x2048x128_S32x2048x128

/-- Slab 16 b + h of a merged argument is the argument's (b, h). -/
theorem merged_apply (A : S2x16x2048x128.Idx → EReal) (b : Fin 2) (h : Fin 16) (r : Fin 2048) (e : Fin 128)
    (g : Fin 32) (hg : g.val = b.val * 16 + h.val) : merged A (ix3 g r e) = A (ix4 b h r e) :=
  Cert.LeadAxes.merge_apply A shapeCasts_S2x16x2048x128_S32x2048x128 b h r e g hg

/-- Splitting the leading axis of attention on the merged arguments gives attention on the arguments. -/
theorem split_onSlabs (Q K W : S2x16x2048x128.Idx → EReal) :
    shapeCast S2x16x2048x128 (onSlabs (merged Q) (merged K) (merged W)) shapeCasts_S32x2048x128_S2x16x2048x128
      = onArgs Q K W := by
  funext i
  obtain ⟨b, h, q, d, rfl⟩ : ∃ (b : Fin 2) (h : Fin 16) (q : Fin 2048) (d : Fin 128), i = ix4 b h q d :=
    ⟨i 0, i 1, i 2, i 3, eq_ix4 i⟩
  have hg : b.val * 16 + h.val < 32 := by have := b.isLt; have := h.isLt; omega
  refine (Cert.LeadAxes.split_apply _ shapeCasts_S32x2048x128_S2x16x2048x128 b h q d ⟨b.val * 16 + h.val, hg⟩ rfl).trans ?_
  show Cert.Attn.row _ _ _ = Cert.Attn.row _ _ _
  have eq : (fun e : Fin 128 => merged Q (ix3 (⟨b.val * 16 + h.val, hg⟩ : Fin 32) q e)) = fun e => Q (ix4 b h q e) :=
    funext fun e => merged_apply Q b h q e _ rfl
  have ek : (fun (j : Fin 2048) (e : Fin 128) => merged K (ix3 (⟨b.val * 16 + h.val, hg⟩ : Fin 32) j e))
      = fun j e => K (ix4 b h j e) :=
    funext fun j => funext fun e => merged_apply K b h j e _ rfl
  have ev : (fun j : Fin 2048 => merged W (ix3 (⟨b.val * 16 + h.val, hg⟩ : Fin 32) j d)) = fun j => W (ix4 b h j d) :=
    funext fun j => merged_apply W b h j d _ rfl
  exact congr (congr (congrArg Cert.Attn.row eq) ek) ev

/-! ## The arrays the region finds -/

/-- The queries as the region finds them: the first argument, merged (the format change is the identity). -/
theorem V_main_v1 (c : Dev nD) : V m c main_v1 = merged (m ((c : Thread nD τ).loc main_arg0)) := by
  show StableHlo.after hostOps0 (fun b => m (c, b)) (Proc.devRef .tc main_v1) = _
  after_results
  rfl

/-- The keys as the region finds them: the second argument, merged. -/
theorem V_main_v3 (c : Dev nD) : V m c main_v3 = merged (m ((c : Thread nD τ).loc main_arg1)) := by
  show StableHlo.after hostOps0 (fun b => m (c, b)) (Proc.devRef .tc main_v3) = _
  after_results
  rfl

/-- The values as the region finds them: the third argument, merged. -/
theorem V_main_v5 (c : Dev nD) : V m c main_v5 = merged (m ((c : Thread nD τ).loc main_arg2)) := by
  show StableHlo.after hostOps0 (fun b => m (c, b)) (Proc.devRef .tc main_v5) = _
  after_results
  rfl

/-! ## What a grid point writes back -/

theorem zero_offsets : (![0, 0, 0] : Fin 3 → Nat) = fun _ => 0 := funext fun a => by fin_cases a <;> rfl

/-- The printed index maps, decided over the 64 grid points: the query block and the output block of a point are the
    same block (slab g, row block i), the key and value blocks are the whole slab g, and no map moves along the last
    axis. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (2 : Fin 3) = 0 ∧ win0_3.index t (0 : Fin 3) < 32 ∧ win0_3.index t (1 : Fin 3) < 2 :=
  (by decide +kernel : ∀ t : Fin grid0.N, _)

/-- Every (slab, row block) pair is some grid point's output block. -/
theorem index_onto : ∀ (g : Fin 32) (i : Fin 2), ∃ t : Fin cfg0.N, win0_3.index t = ![g.val, i.val, 0] :=
  (by decide +kernel : ∀ (g : Fin 32) (i : Fin 2), ∃ t : Fin grid0.N, win0_3.index t = ![g.val, i.val, 0])

/-- WHAT POINT `t` WRITES BACK is block `t` of attention on the merged arrays as the region finds them. -/
theorem flushed_eq (c : Dev nD) (t : Fin cfg0.N) :
    (dats m 0 c).flushed 3 t
      = ((cfg0.win 3).blk t).view.read (Elt Ideal) (onSlabs (V m c main_v1) (V m c main_v3) (V m c main_v5)) := by
  show (cfg0.win 3).cut (grid0.coords t) ((dats m 0 c).after 3 t) = _
  rw [after0_3]
  unfold out0_3
  rw [View.canon_unit_zero zero_offsets]
  simp only [View.ld_unit_zero (S := S1x1024x128) zero_offsets, View.ld_unit_zero (S := S1x2048x128) zero_offsets]
  obtain ⟨e00, e01, e02, e10, e11, e12, e20, e21, e22, e32, b30, b31⟩ := index_maps t
  refine funext fun (y : S1x1024x128.Idx) => ?_
  obtain ⟨u, p, d, rfl⟩ : ∃ (u : Fin 1) (p : Fin 1024) (d : Fin 128), y = ix3 u p d := ⟨y 0, y 1, y 2, eq_ix3 y⟩
  obtain rfl : u = 0 := Subsingleton.elim _ _
  refine (Cert.BodyAttn.pay_apply (iblk m c 0 t) (iblk m c 1 t) (iblk m c 2 t) p d).trans ?_
  show Cert.Attn.row _ _ _ = Cert.Attn.row _ _ _
  have eq : (fun e : Fin 128 => iblk m c 0 t (ix3 (0 : Fin 1) p e))
      = fun e : Fin 128 => V m c main_v1 (ix3 ((((cfg0.win 3).blk t).view.emb (ix3 (0 : Fin 1) p d)) 0 : Fin 32)
          ((((cfg0.win 3).blk t).view.emb (ix3 (0 : Fin 1) p d)) 1 : Fin 2048) e) := by
    funext e
    show V m c main_v1 (((cfg0.win 0).blk t).view.emb (ix3 (0 : Fin 1) p e)) = _
    refine congrArg (V m c main_v1) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * p.val = win0_3.index t (1 : Fin 3) * 1024 + 1 * p.val; omega
    | ⟨2, _⟩ => show win0_0.index t (2 : Fin 3) * 128 + 1 * e.val = e.val; omega
  have ek : (fun (j : Fin 2048) (e : Fin 128) => iblk m c 1 t (ix3 (0 : Fin 1) j e))
      = fun (j : Fin 2048) (e : Fin 128) => V m c main_v3 (ix3 ((((cfg0.win 3).blk t).view.emb (ix3 (0 : Fin 1) p d)) 0 : Fin 32) j e) := by
    funext j e
    show V m c main_v3 (((cfg0.win 1).blk t).view.emb (ix3 (0 : Fin 1) j e)) = _
    refine congrArg (V m c main_v3) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 2048 + 1 * j.val = j.val; omega
    | ⟨2, _⟩ => show win0_1.index t (2 : Fin 3) * 128 + 1 * e.val = e.val; omega
  have ev : (fun j : Fin 2048 => iblk m c 2 t (ix3 (0 : Fin 1) j d))
      = fun j : Fin 2048 => V m c main_v5 (ix3 ((((cfg0.win 3).blk t).view.emb (ix3 (0 : Fin 1) p d)) 0 : Fin 32) j
          ((((cfg0.win 3).blk t).view.emb (ix3 (0 : Fin 1) p d)) 2 : Fin 128)) := by
    funext j
    show V m c main_v5 (((cfg0.win 2).blk t).view.emb (ix3 (0 : Fin 1) j d)) = _
    refine congrArg (V m c main_v5) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 2048 + 1 * j.val = j.val; omega
    | ⟨2, _⟩ => show win0_2.index t (2 : Fin 3) * 128 + 1 * d.val = win0_3.index t (2 : Fin 3) * 128 + 1 * d.val; omega
  exact congr (congr (congrArg Cert.Attn.row eq) ek) ev

/-! ## The whole output array -/

/-- An index of the output array is in point `t`'s block iff each coordinate is in the block's range on its axis. -/
theorem mem_blk (t : Fin cfg0.N) (i : S32x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v6).slice (win0_3.rect t)).set ↔ _
  rw [View.set_slice_whole, Rect.mem_set_unit]
  exact Iff.rfl

/-- The 64 blocks cover the output array: the entry (g, r, d) is in the block of the point that writes slab g, row
    block r / 1024. -/
theorem covered (i : S32x2048x128.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- THE OUTPUT ARRAY after the region: attention on the merged arguments. -/
theorem final (c : Dev nD) :
    (dats m 0 c).arrAt 3 cfg0.N
      = onSlabs (merged (m ((c : Thread nD τ).loc main_arg0))) (merged (m ((c : Thread nD τ).loc main_arg1)))
          (merged (m ((c : Thread nD τ).loc main_arg2))) := by
  rw [← V_main_v1 m c, ← V_main_v3 m c, ← V_main_v5 m c]
  exact (dats m 0 c).arrAt_eq_of_cover 3 _ (fun t _ => flushed_eq m c t) covered

/-! ## The result: the output array with its leading axis split back -/

/-- @main's result after the run: attention on the arguments. -/
theorem result_eq (c : Dev nD) :
    Pipeline.afterTail₀ cfgs (dats m) 0 (V0 m) [hostOps1] c main_v7
      = onArgs (m ((c : Thread nD τ).loc main_arg0)) (m ((c : Thread nD τ).loc main_arg1))
          (m ((c : Thread nD τ).loc main_arg2)) := by
  rw [← split_onSlabs]
  unfold Pipeline.afterTail₀
  show StableHlo.after hostOps1 _ (Proc.devRef .tc main_v7) = _
  after_results
  have e := (Pipeline.withArrays_arr spec0 launch0.win.arr_inj c (V0 m c)
    (fun w => (dats m 0 c).arrAt w cfg0.N) 3).trans (final m c)
  exact congrArg (fun A : S32x2048x128.Idx → EReal =>
    shapeCast S2x16x2048x128 A shapeCasts_S32x2048x128_S2x16x2048x128) e

/-! ## The run, read -/

/-- The frame run re-posted: every weakly fair execution of @main ends with the result at attention on the arguments,
    and the arguments unchanged. -/
theorem run : θ_run defs (onTc (τ := τ) (main (F := Ideal))) ⟨m, fun _ => 0, ρ⟩ fun r => ∀ c : Dev nD,
      r.2.mem ((c.tc : Thread nD τ).loc main_v7)
        = onArgs (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.AttnValue

end
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.RefIsAttn.lean ====
/-
  The reference program is softmax attention, entry by entry, on the extended reals.

  The reference computes, for every batch b, head h and query position q:
    the scores      s j = (sum over e of x0 (b, h, q, e) * x1 (b, h, j, e)) / 1,
    their maximum   m   = max (-inf) (the fold of max from -inf over j of s j),
    the weights     w j = exp (s j - m),
    their sum       z   = 0 + sum over j of w j,
    the probabilities p j = w j / z,
    and the output at (b, h, q, d) = sum over j of p j * x2 (b, h, j, d).
  Dividing by 1, taking the maximum with -inf and adding 0 change no extended real, so each stage is the
  corresponding function of the shared specification (score, rowMax, weight, prob, row), read at explicit
  coordinates. One lemma per stage; the last one is the statement about the whole program.
-/
import proofs.«135960_j52518860096427_2_alg».proof.Proof.Gen.ReferenceIdeal.Read
import proofs.«135960_j52518860096427_2_alg».proof.Proof.AttnSpec
import proofs.«135960_j52518860096427_2_alg».proof.Proof.LibAttnOps
import Idealize.ShloMosaic.Lib.ValueIdx

noncomputable section

open scoped BigOperators

namespace Cert.RefAttn

open Idealize.ShloMosaic Idealize.ShloMosaic.ValueIdx Cert.ReferenceIdeal Cert.ReferenceIdeal.Read

/-- A [2, 16, 2048, 128] array of extended reals: the type of the three arguments. -/
abbrev Arr : Type := (⟨Cert.ReferenceIdeal.S2x16x2048x128, .f32⟩ : BufTy).Contents (Elt Ideal)

/-- The scores of the query row (b, h, q) against every key row j of the same batch and head. -/
abbrev scores (x0 x1 : Arr) (b : Fin 2) (h : Fin 16) (q : Fin 2048) : Fin 2048 → EReal :=
  Cert.Attn.score (fun e : Fin 128 => x0 (ix4 b h q e)) (fun (j : Fin 2048) (e : Fin 128) => x1 (ix4 b h j e))

/-! ## The index maps of the stages, at explicit coordinates -/

/-- The left operand of the first product is read at (b, h, q, e). -/
theorem lidx_v0 (b : Fin 2) (h : Fin 16) (q j : Fin 2048) (e : Fin 128) :
    lidx_main_v0 (ix4 b h q j) e = ix4 b h q e :=
  funext fun a => Fin.ext (by match a with | ⟨0, _⟩ => rfl | ⟨1, _⟩ => rfl | ⟨2, _⟩ => rfl | ⟨3, _⟩ => rfl)

/-- The right operand of the first product is read at (b, h, j, e). -/
theorem ridx_v0 (b : Fin 2) (h : Fin 16) (q j : Fin 2048) (e : Fin 128) :
    ridx_main_v0 (ix4 b h q j) e = ix4 b h j e :=
  funext fun a => Fin.ext (by match a with | ⟨0, _⟩ => rfl | ⟨1, _⟩ => rfl | ⟨2, _⟩ => rfl | ⟨3, _⟩ => rfl)

/-- The row maximum repeated along the key axis is read at (b, h, q). -/
theorem idx_v6_v7 (b : Fin 2) (h : Fin 16) (q j : Fin 2048) :
    idx_main_v6 (idx_main_v7 (ix4 b h q j)) = ix3 b h q :=
  funext fun a => Fin.ext (by match a with | ⟨0, _⟩ => rfl | ⟨1, _⟩ => rfl | ⟨2, _⟩ => rfl)

/-- The k-th term of the sum of the weights of row (b, h, q) is read at (b, h, q, k). -/
theorem idx_v10 (b : Fin 2) (h : Fin 16) (q k : Fin 2048) :
    idx_main_v10 (ix3 b h q) k = ix4 b h q k :=
  funext fun a => Fin.ext (by match a with | ⟨0, _⟩ => rfl | ⟨1, _⟩ => rfl | ⟨2, _⟩ => rfl | ⟨3, _⟩ => rfl)

/-- The sum of the weights repeated along the key axis is read at (b, h, q). -/
theorem idx_v11_v12 (b : Fin 2) (h : Fin 16) (q j : Fin 2048) :
    idx_main_v11 (idx_main_v12 (ix4 b h q j)) = ix3 b h q :=
  funext fun a => Fin.ext (by match a with | ⟨0, _⟩ => rfl | ⟨1, _⟩ => rfl | ⟨2, _⟩ => rfl)

/-- The left operand of the second product is read at (b, h, q, j). -/
theorem lidx_v14 (b : Fin 2) (h : Fin 16) (q : Fin 2048) (d : Fin 128) (j : Fin 2048) :
    lidx_main_v14 (ix4 b h q d) j = ix4 b h q j :=
  funext fun a => Fin.ext (by match a with | ⟨0, _⟩ => rfl | ⟨1, _⟩ => rfl | ⟨2, _⟩ => rfl | ⟨3, _⟩ => rfl)

/-- The right operand of the second product is read at (b, h, j, d). -/
theorem ridx_v14 (b : Fin 2) (h : Fin 16) (q : Fin 2048) (d : Fin 128) (j : Fin 2048) :
    ridx_main_v14 (ix4 b h q d) j = ix4 b h j d :=
  funext fun a => Fin.ext (by match a with | ⟨0, _⟩ => rfl | ⟨1, _⟩ => rfl | ⟨2, _⟩ => rfl | ⟨3, _⟩ => rfl)

/-! ## The stages -/

/-- The scaled scores: the dot product of query row (b, h, q) with key row (b, h, j), divided by 1, is the score. -/
theorem v2_apply (x0 x1 : Arr) (b : Fin 2) (h : Fin 16) (q j : Fin 2048) :
    val_main_v2 (F := Ideal) x0 x1 (ix4 b h q j) = scores x0 x1 b h q j := by
  rw [val_main_v2_apply, val_main_v0_apply, val_main_v1_apply, val_main_cst_apply, Ideal.hostDivf_def,
    Ideal.ofBits_def, Cert.Attn.div_one_pattern]
  show _ = ∑ e : Fin 128, x0 (ix4 b h q e) * x1 (ix4 b h j e)
  refine Finset.sum_congr rfl fun e _ => ?_
  rw [lidx_v0, ridx_v0]

/-- The row maximum: the fold of max from -inf over the scores of row (b, h, q), then the maximum with -inf. -/
theorem v5_apply (x0 x1 : Arr) (b : Fin 2) (h : Fin 16) (q : Fin 2048) :
    val_main_v5 (F := Ideal) x0 x1 (ix3 b h q) = Cert.Attn.rowMax (scores x0 x1 b h q) := by
  rw [val_main_v5_apply, val_main_v4_apply, val_main_cst_1_apply, Ideal.maximumf_def, Ideal.ofBits_def,
    Cert.Attn.max_neg_inf_pattern]
  unfold val_main_v3
  refine (Cert.AttnOps.host_max_last4_apply (val_main_v2 (F := Ideal) x0 x1) (val_main_cst_0 (F := Ideal))
    Cert.ReferenceIdeal.Gen.reducesTo_S2x16x2048x2048_S2x16x2048_d3 (by decide) Cert.ReferenceIdeal.Gen.h_S_ b h q).trans ?_
  rw [val_main_cst_0_apply, Ideal.ofBits_def]
  exact Finset.fold_congr fun j _ => v2_apply x0 x1 b h q j

/-- The weights: the exponential of the score less the row maximum. -/
theorem v9_apply (x0 x1 : Arr) (b : Fin 2) (h : Fin 16) (q j : Fin 2048) :
    val_main_v9 (F := Ideal) x0 x1 (ix4 b h q j) = Cert.Attn.weight (scores x0 x1 b h q) j := by
  rw [val_main_v9_apply, val_main_v8_apply, val_main_v7_apply, val_main_v6_apply, idx_v6_v7, v5_apply, v2_apply,
    Ideal.hostUnary_exp_def, Ideal.subf_def]
  rfl

/-- The sum of the weights of row (b, h, q): the leading 0 changes nothing. -/
theorem v10_apply (x0 x1 : Arr) (b : Fin 2) (h : Fin 16) (q : Fin 2048) :
    val_main_v10 (F := Ideal) x0 x1 (ix3 b h q) = ∑ j : Fin 2048, Cert.Attn.weight (scores x0 x1 b h q) j := by
  rw [val_main_v10_apply, val_main_cst_2_apply, Ideal.ofBits_def, Ideal.ofBits_zero_f32, zero_add]
  refine Finset.sum_congr rfl fun k _ => ?_
  rw [idx_v10, v9_apply]

/-- The probabilities: each weight over the sum of the weights of its row. -/
theorem v13_apply (x0 x1 : Arr) (b : Fin 2) (h : Fin 16) (q j : Fin 2048) :
    val_main_v13 (F := Ideal) x0 x1 (ix4 b h q j) = Cert.Attn.prob (scores x0 x1 b h q) j := by
  rw [val_main_v13_apply, val_main_v12_apply, val_main_v11_apply, idx_v11_v12, v10_apply, v9_apply,
    Ideal.hostDivf_def]
  rfl

/-- The reference program at the entry (b, h, q, d) is the attention row of query (b, h, q) against the keys of
    (b, h) and column d of the values of (b, h). -/
theorem ref_apply (x0 x1 x2 : (⟨Cert.ReferenceIdeal.S2x16x2048x128, .f32⟩ : BufTy).Contents (Elt Ideal)) (b : Fin 2) (h : Fin 16) (q : Fin 2048) (d : Fin 128) :
    Cert.ReferenceIdeal.Read.val_main_v14 (F := Ideal) x0 x1 x2 (ix4 b h q d)
      = Cert.Attn.row (fun e : Fin 128 => x0 (ix4 b h q e)) (fun (j : Fin 2048) (e : Fin 128) => x1 (ix4 b h j e)) (fun j : Fin 2048 => x2 (ix4 b h j d)) := by
  rw [val_main_v14_apply]
  show _ = ∑ j : Fin 2048, Cert.Attn.prob (scores x0 x1 b h q) j * x2 (ix4 b h j d)
  refine Finset.sum_congr rfl fun j _ => ?_
  rw [lidx_v14, ridx_v14, v13_apply]

end Cert.RefAttn

end
-- ==== Proof.RefIsKernel.lean ====
/-
  The reference program's result is the same function of the arguments as the kernel program's.

  Entry by entry the reference's last stage is the attention row of query (b, h, q) against the keys and values of
  (b, h); the kernel program's result was shown to be that function, here named `onArgs`.  An index of the result is
  its four coordinates, so the two arrays are equal.
-/
import proofs.«135960_j52518860096427_2_alg».proof.Proof.RefIsAttn
import proofs.«135960_j52518860096427_2_alg».proof.Proof.KernelValue

noncomputable section

namespace Cert.RefAttn

open Idealize.ShloMosaic Idealize.ShloMosaic.ValueIdx

/-- The reference's result array is attention on the arguments. -/
theorem ref_eq_onArgs (x0 x1 x2 : (⟨Cert.ReferenceIdeal.S2x16x2048x128, .f32⟩ : BufTy).Contents (Elt Ideal)) :
    Cert.ReferenceIdeal.Read.val_main_v14 (F := Ideal) x0 x1 x2 = Cert.KernelIdeal.AttnValue.onArgs x0 x1 x2 := by
  funext i
  obtain ⟨b, h, q, d, rfl⟩ : ∃ (b : Fin 2) (h : Fin 16) (q : Fin 2048) (d : Fin 128), i = ix4 b h q d :=
    ⟨i 0, i 1, i 2, i 3, eq_ix4 i⟩
  exact ref_apply x0 x1 x2 b h q d

end Cert.RefAttn

end
-- ==== Proof.lean ====
/-
  The kernel program and the reference program compute the same attention, on the extended reals.

  Both programs compute, for every batch b, head h, query position q and channel d,
      sum over j of  exp (s j - max s) / (sum over j' of exp (s j' - max s))  *  value (b, h, j, d),
  where s j = sum over e of query (b, h, q, e) * key (b, h, j, e).  The kernel program merges the batch and head axes,
  computes the rows in blocks of 1024 queries on a 32 x 2 grid, and splits the axis back; the reference divides the
  scores by 1 and takes a maximum with -inf on the way, neither of which changes an extended real.  No step uses that
  the inputs are finite.  The frames of the two kernel programs are the generated ones, the reference's frame is its
  generated run with the result dropped, and the idealization rewrote nothing.
-/
import proofs.«135960_j52518860096427_2_alg».proof.Defs
import proofs.«135960_j52518860096427_2_alg».proof.Proof.Gen.Kernel
import proofs.«135960_j52518860096427_2_alg».proof.Proof.Gen.Kernel.Skeleton
import proofs.«135960_j52518860096427_2_alg».proof.Proof.Gen.Kernel.Launch
import proofs.«135960_j52518860096427_2_alg».proof.Proof.Gen.Kernel.Points
import proofs.«135960_j52518860096427_2_alg».proof.Proof.Gen.Kernel.Frame
import proofs.«135960_j52518860096427_2_alg».proof.Proof.Gen.KernelIdeal
import proofs.«135960_j52518860096427_2_alg».proof.Proof.Gen.KernelIdeal.Skeleton
import proofs.«135960_j52518860096427_2_alg».proof.Proof.Gen.KernelIdeal.Launch
import proofs.«135960_j52518860096427_2_alg».proof.Proof.Gen.KernelIdeal.Points
import proofs.«135960_j52518860096427_2_alg».proof.Proof.Gen.KernelIdeal.Frame
import proofs.«135960_j52518860096427_2_alg».proof.Proof.Gen.ReferenceIdeal
import proofs.«135960_j52518860096427_2_alg».proof.Proof.Gen.Pre_finite_inputs
import proofs.«135960_j52518860096427_2_alg».proof.Proof.Gen.ReferenceIdeal.Run
import proofs.«135960_j52518860096427_2_alg».proof.Proof.Gen.ReferenceIdeal.Read
import proofs.«135960_j52518860096427_2_alg».proof.Proof.KernelValue
import proofs.«135960_j52518860096427_2_alg».proof.Proof.RefIsKernel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at attention on the arguments. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact Cert.RefAttn.ref_eq_onArgs _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
